-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x36x4096 : Shape := ⟨3, ![64, 36, 4096]⟩
abbrev S_ : Shape := ⟨0, ![]⟩

class Facts : Prop where
  bcast_S_S64x36x4096 : S_.BroadcastsInDim S64x36x4096 (![] : Fin 0 → Fin S64x36x4096.rank)
  reducesTo_S64x36x4096_S_d0_1_2 : S64x36x4096.ReducesTo [0, 1, 2] S_
  h_S_ : 0 < S_.numel

variable [Facts]

def fn {F : FTy → Type} [FloatOps F] (main_arg0 : FVec F S64x36x4096 .f32) (main_arg1 : FVec F S64x36x4096 .f32) : IVec S_ 1 :=
  let main_v0 : FVec F S64x36x4096 .f32 := Host.absf main_arg0
  let main_cst : FVec F S_ .f32 := constant S_ .f32 0x7F800000#32
  let main_v1 : FVec F S64x36x4096 .f32 := broadcastInDim S64x36x4096 ![] bcast_S_S64x36x4096 main_cst
  let main_v2 : IVec S64x36x4096 1 := cmpf .olt main_v0 main_v1
  let main_c : IVec S_ 1 := constantI S_ 1 1#1
  let main_v3 : IVec S_ 1 := (fun x v => Host.reduce IntOp.andi x v reducesTo_S64x36x4096_S_d0_1_2 h_S_) main_v2 main_c
  let main_v4 : FVec F S64x36x4096 .f32 := Host.absf main_arg1
  let main_cst_0 : FVec F S_ .f32 := constant S_ .f32 0x7F800000#32
  let main_v5 : FVec F S64x36x4096 .f32 := broadcastInDim S64x36x4096 ![] bcast_S_S64x36x4096 main_cst_0
  let main_v6 : IVec S64x36x4096 1 := cmpf .olt main_v4 main_v5
  let main_c_1 : IVec S_ 1 := constantI S_ 1 1#1
  let main_v7 : IVec S_ 1 := (fun x v => Host.reduce IntOp.andi x v reducesTo_S64x36x4096_S_d0_1_2 h_S_) main_v6 main_c_1
  let main_v8 : IVec S_ 1 := andi main_v3 main_v7
  main_v8
-- ==== Kernel.lean ====
abbrev S64x36x4096 : Shape := ⟨3, ![64, 36, 4096]⟩
abbrev S2304x4096 : Shape := ⟨2, ![2304, 4096]⟩
abbrev S288x4096 : Shape := ⟨2, ![288, 4096]⟩
abbrev S288 : Shape := ⟨1, ![288]⟩
abbrev S288x1 : Shape := ⟨2, ![288, 1]⟩

abbrev nBuf : Space → Nat
  | .hbm => 6
  | .vmem => 6
  | .smem => 0
  | _ => 0

abbrev bufTy : (tb : Table) → Fin (tcTables nBuf tb) → BufTy
  | .hbm, ⟨0, _⟩ => ⟨S64x36x4096, .f32⟩
  | .hbm, ⟨1, _⟩ => ⟨S64x36x4096, .f32⟩
  | .hbm, ⟨2, _⟩ => ⟨S2304x4096, .f32⟩
  | .hbm, ⟨3, _⟩ => ⟨S2304x4096, .f32⟩
  | .hbm, ⟨4, _⟩ => ⟨S2304x4096, .f32⟩
  | .hbm, ⟨5, _⟩ => ⟨S64x36x4096, .f32⟩
  | .local _ .vmem, ⟨0, _⟩ => ⟨S288x4096, .f32⟩
  | .local _ .vmem, ⟨1, _⟩ => ⟨S288x4096, .f32⟩
  | .local _ .vmem, ⟨2, _⟩ => ⟨S288x4096, .f32⟩
  | .local _ .vmem, ⟨3, _⟩ => ⟨S288x4096, .f32⟩
  | .local _ .vmem, ⟨4, _⟩ => ⟨S288x4096, .f32⟩
  | .local _ .vmem, ⟨5, _⟩ => ⟨S288x4096, .f32⟩
  | _, _ => ⟨S64x36x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S288x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S288x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S288x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x36x4096_S2304x4096 : S64x36x4096.ShapeCasts S2304x4096
  inb_S288x4096_S288x4096_0_0 : ∀ a, (![0, 0] : Fin 2 → Nat) a + S288x4096.size a ≤ S288x4096.size a
  h_S288x4096 : 0 < S288x4096.numel
  shapeCasts_S288x4096_S288x4096 : S288x4096.ShapeCasts S288x4096
  reduces_S288x4096_S288 : S288x4096.Reduces [1] S288
  shapeCasts_S288_S288x1 : S288.ShapeCasts S288x1
  broadcasts_S288x1_S288x4096 : S288x1.Broadcasts S288x4096
  shapeCasts_S2304x4096_S64x36x4096 : S2304x4096.ShapeCasts S64x36x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S288x4096.size a ≤ S2304x4096.size a
  hwx0_0 : ∀ i : grid0.Coords, EltTy.bits .f32 = 32 ∨ (Rect.block (s := S2304x4096) S288x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S288x4096.size a ≤ S2304x4096.size a
  hwx0_1 : ∀ i : grid0.Coords, EltTy.bits .f32 = 32 ∨ (Rect.block (s := S2304x4096) S288x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S288x4096.size a ≤ S2304x4096.size a
  hwx0_2 : ∀ i : grid0.Coords, EltTy.bits .f32 = 32 ∨ (Rect.block (s := S2304x4096) S288x4096.size (cc0_transform_2 i) (hinb0_2 i)).WholeWords (EltTy.packing .f32)

variable [Facts₀]

abbrev win0_0 : Pipeline.Window sig grid0 :=
  Pipeline.Window.ofSpec (Memref.whole main_v0) S288x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S288x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S288x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x36x4096 : Shape := ⟨3, ![64, 36, 4096]⟩
abbrev S_ : Shape := ⟨0, ![]⟩
abbrev S64x36 : Shape := ⟨2, ![64, 36]⟩
abbrev S64x36x1 : Shape := ⟨3, ![64, 36, 1]⟩

abbrev nBuf : Space → Nat
  | .hbm => 17
  | .vmem => 0
  | .smem => 0
  | _ => 0

abbrev bufTy : (tb : Table) → Fin (tcTables nBuf tb) → BufTy
  | .hbm, ⟨0, _⟩ => ⟨S64x36x4096, .f32⟩
  | .hbm, ⟨1, _⟩ => ⟨S64x36x4096, .f32⟩
  | .hbm, ⟨2, _⟩ => ⟨S_, .f32⟩
  | .hbm, ⟨3, _⟩ => ⟨S64x36, .f32⟩
  | .hbm, ⟨4, _⟩ => ⟨S64x36x1, .f32⟩
  | .hbm, ⟨5, _⟩ => ⟨S_, .f32⟩
  | .hbm, ⟨6, _⟩ => ⟨S64x36x1, .f32⟩
  | .hbm, ⟨7, _⟩ => ⟨S64x36x1, .f32⟩
  | .hbm, ⟨8, _⟩ => ⟨S_, .f32⟩
  | .hbm, ⟨9, _⟩ => ⟨S64x36, .f32⟩
  | .hbm, ⟨10, _⟩ => ⟨S64x36x1, .f32⟩
  | .hbm, ⟨11, _⟩ => ⟨S_, .f32⟩
  | .hbm, ⟨12, _⟩ => ⟨S64x36x1, .f32⟩
  | .hbm, ⟨13, _⟩ => ⟨S64x36x1, .f32⟩
  | .hbm, ⟨14, _⟩ => ⟨S64x36x1, .f32⟩
  | .hbm, ⟨15, _⟩ => ⟨S64x36x4096, .f32⟩
  | .hbm, ⟨16, _⟩ => ⟨S64x36x4096, .f32⟩
  | _, _ => ⟨S64x36x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  reducesTo_S64x36x4096_S64x36_d2 : S64x36x4096.ReducesTo [2] S64x36
  h_S_ : 0 < S_.numel
  bcast_S64x36_S64x36x1_0_1 : S64x36.BroadcastsInDim S64x36x1 (![0, 1] : Fin 2 → Fin S64x36x1.rank)
  bcast_S_S64x36x1 : S_.BroadcastsInDim S64x36x1 (![] : Fin 0 → Fin S64x36x1.rank)
  bcast_S64x36x1_S64x36x4096_0_1_2 : S64x36x1.BroadcastsInDim S64x36x4096 (![0, 1, 2] : Fin 3 → Fin S64x36x4096.rank)

variable [Facts₀]

class Facts : Prop extends Facts₀ where

variable [Facts]
-- ==== Proof.RowMean.lean ====
/-
  The function both programs compute, and the one law that joins its two spellings.

  Each row of the input holds 4096 lanes.  Write  mean a r = (∑ₖ a[r, k]) / 4096  for the exact quotient of a row's sum by the
  lane count.  The result at a position is the second input there, times the sum of the two inputs' row means:

      out[r, l] = y[r, l] · (mean x r + mean y r).

  The kernel sees the inputs flattened to 2304 = 64 · 36 rows (`flat`), the reference sees them as a 64 × 36 stack of
  rows (`cube`).  Row `(b, c)` of the stack is row `36 b + c` of the flat array, lane for lane: both places have row-major
  position `(36 b + c) · 4096 + l`.  So flattening the inputs, applying `flat`, and stacking the result again is `cube`
  (`cube_of_flat`).  Nothing here uses that the entries are finite: the equation is between the same sums, quotients,
  sum and product, taken at the same entries.
-/
import Idealize.ShloMosaic.PureOps.Ideal
import Idealize.ShloMosaic.Lib.ValueIdx
import Idealize.ShloMosaic.Lib.Pipeline.Value

noncomputable section

open scoped BigOperators
open Idealize.ShloMosaic Idealize.ShloMosaic.ValueIdx

namespace Cert.RowMean

/-- The stack of rows: 64 × 36 rows of 4096 lanes. -/
abbrev Cube : Shape := ⟨3, ![64, 36, 4096]⟩
/-- The same rows in one list: 2304 rows of 4096 lanes. -/
abbrev Flat : Shape := ⟨2, ![2304, 4096]⟩

/-- The lane count, 4096, as the float word both programs divide by. -/
abbrev lanes : EReal := Ideal.ofBits .f32 0x45800000#32

/-- On the flat array: the second input times the sum of the two row means of its row. -/
def flat (a b : Flat.Idx → EReal) : Flat.Idx → EReal := fun j =>
  b j * (Ideal.div (∑ k : Fin 4096, a (ix2 (n0 := 2304) (j 0) k)) lanes
    + Ideal.div (∑ k : Fin 4096, b (ix2 (n0 := 2304) (j 0) k)) lanes)

/-- On the stack: the second input times the sum of the two row means of its row. -/
def cube (x y : Cube.Idx → EReal) : Cube.Idx → EReal := fun i =>
  y i * (Ideal.div (∑ k : Fin 4096, x (ix3 (n0 := 64) (n1 := 36) (i 0) (i 1) k)) lanes
    + Ideal.div (∑ k : Fin 4096, y (ix3 (n0 := 64) (n1 := 36) (i 0) (i 1) k)) lanes)

/-- `flat` at explicit coordinates. -/
theorem flat_apply (a b : Flat.Idx → EReal) (r : Fin 2304) (l : Fin 4096) :
    flat a b (ix2 r l) = b (ix2 r l) * (Ideal.div (∑ k : Fin 4096, a (ix2 r k)) lanes
      + Ideal.div (∑ k : Fin 4096, b (ix2 r k)) lanes) := rfl

/-- `cube` at explicit coordinates. -/
theorem cube_apply (x y : Cube.Idx → EReal) (b : Fin 64) (c : Fin 36) (l : Fin 4096) :
    cube x y (ix3 b c l) = y (ix3 b c l) * (Ideal.div (∑ k : Fin 4096, x (ix3 b c k)) lanes
      + Ideal.div (∑ k : Fin 4096, y (ix3 b c k)) lanes) := rfl

/-- The flattened array at row `36 b + c` is the stack at row `(b, c)`, lane for lane. -/
theorem flatten_apply (x : Cube.Idx → EReal) (h : Cube.ShapeCasts Flat) (b : Fin 64) (c : Fin 36) (l : Fin 4096)
    (r : Fin 2304) (hr : r.val = b.val * 36 + c.val) :
    shapeCast Flat x h (ix2 r l) = x (ix3 b c l) :=
  shapeCast_apply x h (ix2 r l) (ix3 b c l) (by
    rw [Shape.rowMajor_val_three, Shape.rowMajor_val_two]
    show (b.val * 36 + c.val) * 4096 + l.val = r.val * 4096 + l.val
    rw [hr])

/-- The stacked array at row `(b, c)` is the flat one at row `36 b + c`, lane for lane. -/
theorem stack_apply (z : Flat.Idx → EReal) (h : Flat.ShapeCasts Cube) (b : Fin 64) (c : Fin 36) (l : Fin 4096)
    (r : Fin 2304) (hr : r.val = b.val * 36 + c.val) :
    shapeCast Cube z h (ix3 b c l) = z (ix2 r l) :=
  shapeCast_apply z h (ix3 b c l) (ix2 r l) (by
    rw [Shape.rowMajor_val_three, Shape.rowMajor_val_two]
    show r.val * 4096 + l.val = (b.val * 36 + c.val) * 4096 + l.val
    rw [hr])

/-- Flatten the inputs, take `flat`, stack the result: that is `cube` of the inputs. -/
theorem cube_of_flat (x y : Cube.Idx → EReal) (h : Cube.ShapeCasts Flat) (h' : Flat.ShapeCasts Cube) :
    shapeCast Cube (flat (shapeCast Flat x h) (shapeCast Flat y h)) h' = cube x y := by
  funext i
  obtain ⟨b, c, l, rfl⟩ : ∃ (b : Fin 64) (c : Fin 36) (l : Fin 4096), i = ix3 b c l := ⟨i 0, i 1, i 2, eq_ix3 i⟩
  have hlt : b.val * 36 + c.val < 2304 := by have := b.isLt; have := c.isLt; omega
  rw [stack_apply _ h' b c l ⟨b.val * 36 + c.val, hlt⟩ rfl, flat_apply, cube_apply]
  simp only [flatten_apply x h b c _ ⟨b.val * 36 + c.val, hlt⟩ rfl,
    flatten_apply y h b c _ ⟨b.val * 36 + c.val, hlt⟩ rfl]

end Cert.RowMean

end
-- ==== Proof.RefMean.lean ====
/-
  The reference program's result is `cube` of its two arguments.

  Read one operation at a time, the reference takes each row's sum starting from zero, divides it by 4096, adds the two
  quotients and multiplies the second argument by the sum, every intermediate kept with a unit last axis and broadcast
  back along the lanes.  At position `(b, c, l)` the broadcasts read row `(b, c)`, the two sums run over the lanes of that
  row, and the zero they start from adds nothing: what is left is `cube` at `(b, c, l)`, term for term.
-/
import proofs.«154060_j936302870551_2_alg».proof.Proof.Gen.ReferenceIdeal.Read
import proofs.«154060_j936302870551_2_alg».proof.Proof.RowMean
import Idealize.ShloMosaic.PureOps.Ideal.Laws
import Idealize.ShloMosaic.Lib.ValueIdx

noncomputable section

open scoped BigOperators
open Idealize.ShloMosaic Idealize.ShloMosaic.ValueIdx

namespace Cert.ReferenceIdeal.RefMean

open Cert.ReferenceIdeal Cert.ReferenceIdeal.Read Cert.RowMean

/-- The lanes the first argument's row sum runs over at `(b, c, l)`: row `(b, c)`. -/
theorem lanes_of_first (b : Fin 64) (c : Fin 36) (l k : Fin 4096) :
    idx_main_v0 (idx_main_v1 (idx_main_v9 (ix3 b c l))) k = ix3 b c k :=
  funext fun a => Fin.ext (by match a with | ⟨0, _⟩ => rfl | ⟨1, _⟩ => rfl | ⟨2, _⟩ => rfl)

/-- The lanes the second argument's row sum runs over at `(b, c, l)`: row `(b, c)`. -/
theorem lanes_of_second (b : Fin 64) (c : Fin 36) (l k : Fin 4096) :
    idx_main_v4 (idx_main_v5 (idx_main_v9 (ix3 b c l))) k = ix3 b c k :=
  funext fun a => Fin.ext (by match a with | ⟨0, _⟩ => rfl | ⟨1, _⟩ => rfl | ⟨2, _⟩ => rfl)

/-- The reference's last stage, as a function of the two arguments, is `cube`. -/
theorem stage_eq_cube (x y : (⟨S64x36x4096, .f32⟩ : BufTy).Contents (Elt Ideal)) :
    val_main_v10 (F := Ideal) x y = cube x y := by
  funext i
  obtain ⟨b, c, l, rfl⟩ : ∃ (b : Fin 64) (c : Fin 36) (l : Fin 4096), i = ix3 b c l := ⟨i 0, i 1, i 2, eq_ix3 i⟩
  rw [val_main_v10_apply, val_main_v9_apply, val_main_v8_apply, val_main_v3_apply, val_main_v7_apply,
    val_main_v1_apply, val_main_v5_apply, val_main_v0_apply, val_main_v4_apply, val_main_v2_apply, val_main_v6_apply,
    val_main_cst_0_apply, val_main_cst_2_apply, val_main_cst_apply, val_main_cst_1_apply, cube_apply]
  simp only [lanes_of_first, lanes_of_second, Ideal.mulf_def, Ideal.addf_def, Ideal.hostDivf_def, Ideal.ofBits_def,
    Ideal.ofBits_zero_f32, zero_add]

end Cert.ReferenceIdeal.RefMean

end
-- ==== Proof.BodyMean.lean ====
/-
  What the kernel body stores, read at one position of its block.

  The body holds a block of 288 rows of each input, whole rows of 4096 lanes.  It sums each row of each block over its
  lanes (from zero), keeps the 288 sums as a column, divides the column by 4096, adds the two columns, spreads the sum
  back along the lanes and multiplies the second block by it.  At row `p`, lane `q` of the block this is

      x₁[p, q] · ((∑ₖ x₀[p, k]) / 4096 + (∑ₖ x₁[p, k]) / 4096),

  that is `flat` with the block's own 288 rows in place of the array's 2304: a row's mean needs only that row, which is
  why a block of whole rows is enough.
-/
import proofs.«154060_j936302870551_2_alg».proof.Proof.Gen.KernelIdeal.Skeleton
import proofs.«154060_j936302870551_2_alg».proof.Proof.RowMean
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.KernelIdeal.BodyMean

open Cert.KernelIdeal Cert.KernelIdeal.Gen Cert.RowMean

/-- The sum over the lanes of a block, at row `p`: the sum of that row's 4096 entries. -/
theorem lane_sum (v : FVec Ideal S288x4096 .f32) (h : S288x4096.Reduces [1] S288) (hφ : FKind.Formats .f32)
    (hacc : (0x00000000#32 : BitVec 32) = FKind.add.neutral .f32 hφ) (p : Fin 288) :
    multiReduction .add [1] S288 v 0x00000000#32 h hφ hacc (ix1 p) = ∑ k : Fin 4096, v (ix2 p k) :=
  (Ideal.multiReduction_add_single v 0x00000000#32 h hφ hacc (ix1 p)).trans
    (Finset.sum_congr rfl fun k _ => congrArg v
      (funext fun a => Fin.ext (by match a with | ⟨0, _⟩ => rfl | ⟨1, _⟩ => rfl)))

/-- 288 values kept as a column of 288 rows and one lane: row `p` of the column is value `p`. -/
theorem column_apply {α : Type} (v : S288.Idx → α) (h : S288.ShapeCasts S288x1) (p : Fin 288) (z : Fin 1) :
    shapeCast S288x1 v h (ix2 p z) = v (ix1 p) :=
  shapeCast_apply v h (ix2 p z) (ix1 p) (by
    rw [Shape.rowMajor_val_one, Shape.rowMajor_val_two]
    show p.val = p.val * 1 + z.val
    have := z.isLt; omega)

/-- A column spread along the lanes: row `p`, lane `q` of the result is row `p` of the column. -/
theorem along_lanes {α : Type} (w : S288x1.Idx → α) (h : S288x1.Broadcasts S288x4096) (p : Fin 288) (q : Fin 4096) :
    broadcastTo S288x4096 w h (ix2 p q) = w (ix2 p (0 : Fin 1)) :=
  broadcastTo_apply w h (ix2 p q) (ix2 p (0 : Fin 1)) (fun a => by
    match a with
    | ⟨0, _⟩ => show p.val = if (288 : Nat) = 1 then 0 else p.val; rw [if_neg (by decide)]
    | ⟨1, _⟩ => show 0 = if (1 : Nat) = 1 then 0 else q.val; rw [if_pos rfl])

/-- The stored block at row `p`, lane `q`: the second block there times the sum of the two row means of row `p`. -/
theorem stored_apply (x0 x1 : Vec Ideal S288x4096 .f32) (p : Fin 288) (q : Fin 4096) :
    k0_pay1 (F := Ideal) x0 x1 (ix2 p q)
      = x1 (ix2 p q) * (Ideal.div (∑ k : Fin 4096, x0 (ix2 p k)) lanes
        + Ideal.div (∑ k : Fin 4096, x1 (ix2 p k)) lanes) := by
  unfold k0_pay1
  dsimp only
  refine (mulf_apply _ _ _).trans ?_
  refine congrArg₂ (· * ·) (congrFun (shapeCast_self x1 _) _) ?_
  refine (along_lanes _ _ p q).trans ?_
  refine (addf_apply _ _ _).trans ?_
  refine congrArg₂ (· + ·) ?_ ?_
  · refine (divf_apply _ _ _).trans ?_
    refine congrArg₂ Ideal.div ?_ rfl
    refine (column_apply _ _ p 0).trans ?_
    refine (lane_sum _ _ _ _ p).trans ?_
    exact Finset.sum_congr rfl fun k _ => congrFun (shapeCast_self x0 _) _
  · refine (divf_apply _ _ _).trans ?_
    refine congrArg₂ Ideal.div ?_ rfl
    refine (column_apply _ _ p 0).trans ?_
    refine (lane_sum _ _ _ _ p).trans ?_
    exact Finset.sum_congr rfl fun k _ => congrFun (shapeCast_self x1 _) _

end Cert.KernelIdeal.BodyMean

end
-- ==== Proof.FlatArray.lean ====
/-
  From the blocks the kernel writes to the flat array it leaves.

  The grid has 8 points.  At point `t` each of the three windows is on block `(t, 0)`: rows `288 t … 288 t + 287`, every
  lane.  So row `p` of the input blocks at point `t` is row `288 t + p` of the flattened inputs, and by the body's value at a
  position (`stored_apply`) what point `t` writes back is rows `288 t … 288 t + 287` of `flat` of the flattened inputs: the
  mean of a row is taken inside the block that holds the whole row.  Row `r` of the output lies in the block of point
  `r / 288`, so the 8 blocks cover the array, and the array the region leaves is `flat` of the two arrays it found.
-/
import proofs.«154060_j936302870551_2_alg».proof.Proof.Gen.KernelIdeal.Frame
import proofs.«154060_j936302870551_2_alg».proof.Proof.BodyMean
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.FlatArray

open Cert.KernelIdeal Cert.KernelIdeal.Gen Cert.RowMean Cert.KernelIdeal.BodyMean

variable (m : (ℓ : Loc nD τ sig) → Buf (Elt Ideal) ℓ)

/-- The body's loads and its store start at the corner of the staging buffer. -/
theorem corner : (![0, 0] : Fin 2 → Nat) = fun _ => 0 := funext fun a => by fin_cases a <;> rfl

/-- At point `t` every window is on block `(t, 0)`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `p` of the first input's block at point `t` is row `288 t + p` of the flattened first input. -/
theorem first_block_apply (c : Dev nD) (t : Fin cfg0.N) (p : Fin 288) (k : Fin 4096) (r : Fin 2304)
    (hr : r.val = t.val * 288 + p.val) :
    (iblk m c 0 t : S288x4096.Idx → EReal) (ix2 p k) = (V m c main_v0 : S2304x4096.Idx → EReal) (ix2 r k) := by
  obtain ⟨e0, e1, -⟩ := block_index t
  show (V m c main_v0 : S2304x4096.Idx → EReal) (((cfg0.win 0).blk t).view.emb (ix2 p k)) = _
  refine congrArg (V m c main_v0 : S2304x4096.Idx → EReal) (funext fun a => Fin.ext ?_)
  match a with
  | ⟨0, _⟩ => show win0_0.index t (0 : Fin 2) * 288 + 1 * p.val = r.val; rw [e0, hr]; omega
  | ⟨1, _⟩ => show win0_0.index t (1 : Fin 2) * 4096 + 1 * k.val = k.val; rw [e1]; omega

/-- Row `p` of the second input's block at point `t` is row `288 t + p` of the flattened second input. -/
theorem second_block_apply (c : Dev nD) (t : Fin cfg0.N) (p : Fin 288) (k : Fin 4096) (r : Fin 2304)
    (hr : r.val = t.val * 288 + p.val) :
    (iblk m c 1 t : S288x4096.Idx → EReal) (ix2 p k) = (V m c main_v1 : S2304x4096.Idx → EReal) (ix2 r k) := by
  obtain ⟨-, -, e2, e3, -⟩ := block_index t
  show (V m c main_v1 : S2304x4096.Idx → EReal) (((cfg0.win 1).blk t).view.emb (ix2 p k)) = _
  refine congrArg (V m c main_v1 : S2304x4096.Idx → EReal) (funext fun a => Fin.ext ?_)
  match a with
  | ⟨0, _⟩ => show win0_1.index t (0 : Fin 2) * 288 + 1 * p.val = r.val; rw [e2, hr]; omega
  | ⟨1, _⟩ => show win0_1.index t (1 : Fin 2) * 4096 + 1 * k.val = k.val; rw [e3]; omega

/-- What point `t` writes back is its block of `flat` of the two flattened inputs. -/
theorem flushed_eq (c : Dev nD) (t : Fin cfg0.N) :
    (dats m 0 c).flushed 2 t
      = ((cfg0.win 2).blk t).view.read (Elt Ideal) (flat (V m c main_v0) (V m c main_v1)) := by
  show (cfg0.win 2).cut (grid0.coords t) ((dats m 0 c).after 2 t) = _
  rw [after0_2]
  unfold out0_2
  rw [View.canon_unit_zero corner]
  simp only [View.ld_unit_zero (S := S288x4096) corner]
  obtain ⟨-, -, -, -, e4, e5⟩ := block_index t
  have hN : cfg0.N = 8 := N_0
  refine funext fun (j : S288x4096.Idx) => ?_
  obtain ⟨p, q, rfl⟩ : ∃ (p : Fin 288) (q : Fin 4096), j = ix2 p q := ⟨j 0, j 1, eq_ix2 j⟩
  have hlt : t.val * 288 + p.val < 2304 := by have := t.isLt; have := p.isLt; omega
  have hemb : ((cfg0.win 2).blk t).view.emb (ix2 p q) = ix2 (⟨t.val * 288 + p.val, hlt⟩ : Fin 2304) q := by
    funext a; apply Fin.ext
    match a with
    | ⟨0, _⟩ => show win0_2.index t (0 : Fin 2) * 288 + 1 * p.val = t.val * 288 + p.val; rw [e4]; omega
    | ⟨1, _⟩ => show win0_2.index t (1 : Fin 2) * 4096 + 1 * q.val = q.val; rw [e5]; omega
  show k0_pay1 (F := Ideal) (iblk m c 0 t) (iblk m c 1 t) (ix2 p q)
    = flat (V m c main_v0) (V m c main_v1) (((cfg0.win 2).blk t).view.emb (ix2 p q))
  refine (stored_apply (iblk m c 0 t) (iblk m c 1 t) p q).trans ?_
  refine Eq.trans ?_ (congrArg (flat (V m c main_v0) (V m c main_v1)) hemb).symm
  rw [flat_apply]
  simp only [first_block_apply m c t p _ ⟨t.val * 288 + p.val, hlt⟩ rfl,
    second_block_apply m c t p _ ⟨t.val * 288 + p.val, hlt⟩ rfl]

/-- An index of the output array lies in point `t`'s block iff each coordinate lies in the block's range. -/
theorem mem_block (t : Fin cfg0.N) (i : S2304x4096.Idx) :
    i ∈ ((cfg0.win 2).blk t).view.set ↔ ∀ a : Fin 2, win0_2.index t a * S288x4096.size a ≤ (i a).val
      ∧ (i a).val < win0_2.index t a * S288x4096.size a + S288x4096.size a := by
  show i ∈ ((View.whole main_v2).slice (win0_2.rect t)).set ↔ _
  rw [View.set_slice_whole, Rect.mem_set_unit]
  exact Iff.rfl

/-- Every index of the output array lies in the block of the point its row falls to, `row / 288`. -/
theorem covered (i : S2304x4096.Idx) :
    ∃ t : Fin cfg0.N, (cfg0.win 2).flush t = true ∧ i ∈ ((cfg0.win 2).blk t).view.set := by
  have hi0 : (i 0).val < 2304 := (i 0).isLt
  have hi1 : (i 1).val < 4096 := (i 1).isLt
  have hN : cfg0.N = 8 := N_0
  have ht : (i 0).val / 288 < cfg0.N := by rw [hN]; omega
  obtain ⟨-, -, -, -, e4, e5⟩ := block_index ⟨(i 0).val / 288, ht⟩
  refine ⟨⟨(i 0).val / 288, ht⟩, flush0_2 _, ?_⟩
  rw [mem_block]
  intro a
  match a with
  | ⟨0, _⟩ =>
    show win0_2.index ⟨(i 0).val / 288, ht⟩ (0 : Fin 2) * 288 ≤ (i 0).val
      ∧ (i 0).val < win0_2.index ⟨(i 0).val / 288, ht⟩ (0 : Fin 2) * 288 + 288
    rw [e4]; show (i 0).val / 288 * 288 ≤ (i 0).val ∧ (i 0).val < (i 0).val / 288 * 288 + 288; omega
  | ⟨1, _⟩ =>
    show win0_2.index ⟨(i 0).val / 288, ht⟩ (1 : Fin 2) * 4096 ≤ (i 1).val
      ∧ (i 1).val < win0_2.index ⟨(i 0).val / 288, ht⟩ (1 : Fin 2) * 4096 + 4096
    rw [e5]; omega

/-- The output array after the region: `flat` of the two flattened inputs as the region found them. -/
theorem final (c : Dev nD) :
    (dats m 0 c).arrAt 2 cfg0.N = flat (V m c main_v0) (V m c main_v1) :=
  (dats m 0 c).arrAt_eq_of_cover 2 (flat (V m c main_v0) (V m c main_v1)) (fun t _ => flushed_eq m c t) covered

end Cert.KernelIdeal.FlatArray

end
-- ==== Proof.Stacked.lean ====
/-
  The kernel program from its arguments to its result.

  Before the region the program flattens each argument from a 64 × 36 stack of rows to 2304 rows; after it, it stacks the
  flat output again.  The region leaves `flat` of the two flattened arguments (`FlatArray.final`), and flattening, `flat`,
  stacking is `cube` (`cube_of_flat`): the result buffer ends at `cube` of the two arguments, which themselves end as they
  began.
-/
import proofs.«154060_j936302870551_2_alg».proof.Proof.FlatArray
import Idealize.ShloMosaic.Lib.StableHlo.Run
import Idealize.ShloMosaic.Lib.Pipeline.FrameSuffix

noncomputable section

open scoped BigOperators
open Idealize.ShloMosaic Idealize.ShloMosaic.TcCoe Idealize.SL.Sem Idealize.ShloMosaic.ValueIdx
open Idealize.ShloMosaic.Pipeline (Dat)

namespace Cert.KernelIdeal.Stacked

open Cert.KernelIdeal Cert.KernelIdeal.Gen Cert.RowMean Cert.KernelIdeal.FlatArray

variable (m : (ℓ : Loc nD τ sig) → Buf (Elt Ideal) ℓ) (ρ : Dev nD → PrngReg)

/-- The region finds the first argument flattened. -/
theorem first_flattened (c : Dev nD) :
    (V m c main_v0 : S2304x4096.Idx → EReal)
      = shapeCast S2304x4096 (m ((c : Thread nD τ).loc main_arg0) : S64x36x4096.Idx → EReal)
          shapeCasts_S64x36x4096_S2304x4096 := by
  show StableHlo.after hostOps0 (fun b => m (c, b)) (Proc.devRef .tc main_v0) = _
  after_results
  rfl

/-- The region finds the second argument flattened. -/
theorem second_flattened (c : Dev nD) :
    (V m c main_v1 : S2304x4096.Idx → EReal)
      = shapeCast S2304x4096 (m ((c : Thread nD τ).loc main_arg1) : S64x36x4096.Idx → EReal)
          shapeCasts_S64x36x4096_S2304x4096 := by
  show StableHlo.after hostOps0 (fun b => m (c, b)) (Proc.devRef .tc main_v1) = _
  after_results
  rfl

/-- The result buffer after the line that follows the region: the flat output stacked, which is `cube` of the arguments. -/
theorem result_eq (c : Dev nD) :
    (Pipeline.afterTail₀ cfgs (dats m) 0 (V0 m) [hostOps1] c main_v3 : S64x36x4096.Idx → EReal)
      = cube (m ((c : Thread nD τ).loc main_arg0)) (m ((c : Thread nD τ).loc main_arg1)) := by
  unfold Pipeline.afterTail₀
  show StableHlo.after hostOps1 _ (Proc.devRef .tc main_v3) = _
  after_results
  rw [(Pipeline.withArrays_arr spec0 launch0.win.arr_inj c _ _ 2).trans (final m c)]
  rw [first_flattened, second_flattened]
  exact cube_of_flat _ _ _ _

/-- Every weakly fair execution of the kernel program ends with the result at `cube` of the arguments and the arguments
    as they began. -/
theorem run : θ_run defs (onTc (τ := τ) (main (F := Ideal))) ⟨m, fun _ => 0, ρ⟩ fun r => ∀ c : Dev nD,
      r.2.mem ((c.tc : Thread nD τ).loc main_v3)
        = cube (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Stacked

end
-- ==== Proof.lean ====
/-
  A tiled kernel and its reference compute one function of two inputs x, y of shape 64 × 36 × 4096.

  Each row of 4096 lanes has a mean,  mean a = (∑ₖ a[k]) / 4096  (the exact quotient of the row's sum by the lane count).
  Both programs return, at every position, the second input there times the sum of the two inputs' means of that row:

      out[b, c, l] = y[b, c, l] · (mean x[b, c, ·] + mean y[b, c, ·]).

  The reference says so directly on the 64 × 36 stack of rows (`RefMean.stage_eq_cube`).  The kernel flattens the stack
  to 2304 rows, walks it in 8 blocks of 288 whole rows, computes the same expression inside each block
  (`BodyMean.stored_apply`), the blocks tile the flat array (`FlatArray.final`), and the flat result is stacked again
  (`Stacked.run`).  Row `(b, c)` of the stack is row `36 b + c` of the flat array, and a row's mean needs that row only, so
  the two agree (`RowMean.cube_of_flat`).  The same sums, quotients, sum and product are taken at the same entries on both
  sides: no law of arithmetic is used beyond `0 + s = s` for the zero the reference's sums start from, so nothing depends
  on the entries being finite.

  The three frame claims are the programs' generated runs; the kernel's idealization rewrote nothing, so there is nothing
  for it to preserve.
-/
import proofs.«154060_j936302870551_2_alg».proof.Defs
import proofs.«154060_j936302870551_2_alg».proof.Proof.Gen.Kernel
import proofs.«154060_j936302870551_2_alg».proof.Proof.Gen.Kernel.Skeleton
import proofs.«154060_j936302870551_2_alg».proof.Proof.Gen.Kernel.Launch
import proofs.«154060_j936302870551_2_alg».proof.Proof.Gen.Kernel.Points
import proofs.«154060_j936302870551_2_alg».proof.Proof.Gen.Kernel.Frame
import proofs.«154060_j936302870551_2_alg».proof.Proof.Gen.KernelIdeal
import proofs.«154060_j936302870551_2_alg».proof.Proof.Gen.KernelIdeal.Skeleton
import proofs.«154060_j936302870551_2_alg».proof.Proof.Gen.KernelIdeal.Launch
import proofs.«154060_j936302870551_2_alg».proof.Proof.Gen.KernelIdeal.Points
import proofs.«154060_j936302870551_2_alg».proof.Proof.Gen.KernelIdeal.Frame
import proofs.«154060_j936302870551_2_alg».proof.Proof.Gen.ReferenceIdeal
import proofs.«154060_j936302870551_2_alg».proof.Proof.Gen.ReferenceIdeal.Run
import proofs.«154060_j936302870551_2_alg».proof.Proof.Gen.ReferenceIdeal.Read
import proofs.«154060_j936302870551_2_alg».proof.Proof.Gen.Pre_finite_inputs
import proofs.«154060_j936302870551_2_alg».proof.Proof.RowMean
import proofs.«154060_j936302870551_2_alg».proof.Proof.RefMean
import proofs.«154060_j936302870551_2_alg».proof.Proof.Stacked
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From arguments that agree, the kernel's result and the reference's are both `cube` of the arguments. -/
theorem algebraic : Cert.algebraic_KernelIdeal_ReferenceIdeal := by
  intro m ρ m' ρ' _ hagree
  refine ⟨fun c => Cert.RowMean.cube (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Stacked.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefMean.stage_eq_cube, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
